-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel

variable [Facts]

def fn {F : FTy → Type} [FloatOps F] (main_arg0 : IVec S8192x4096 32) (main_arg1 : IVec S4096x4096 32) (main_arg2 : IVec S1x4096 32) (main_arg3 : FVec F S1x4096 .f32) : IVec S_ 1 :=
  let main_v0 : FVec F S1x4096 .f32 := Host.absf main_arg3
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  main_v3
-- ==== Kernel.lean ====
abbrev S8192x4096 : Shape := ⟨2, ![8192, 4096]⟩
abbrev S4096x4096 : Shape := ⟨2, ![4096, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .i32⟩
  | .hbm, ⟨1, _⟩ => ⟨S4096x4096, .i32⟩
  | .hbm, ⟨2, _⟩ => ⟨S1x4096, .i32⟩
  | .hbm, ⟨3, _⟩ => ⟨S1x4096, .f32⟩
  | .hbm, ⟨4, _⟩ => ⟨S8192x4096, .f32⟩
  | .local _ .vmem, ⟨0, _⟩ => ⟨S1024x512, .i32⟩
  | .local _ .vmem, ⟨1, _⟩ => ⟨S1024x512, .i32⟩
  | .local _ .vmem, ⟨2, _⟩ => ⟨S512x1024, .i32⟩
  | .local _ .vmem, ⟨3, _⟩ => ⟨S512x1024, .i32⟩
  | .local _ .vmem, ⟨4, _⟩ => ⟨S1x1024, .i32⟩
  | .local _ .vmem, ⟨5, _⟩ => ⟨S1x1024, .i32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .i32 = 32 ∨ (Rect.block (s := S8192x4096) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .i32 = 32 ∨ (Rect.block (s := S1x4096) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .i32⟩
  | .hbm, ⟨1, _⟩ => ⟨S4096x4096, .i32⟩
  | .hbm, ⟨2, _⟩ => ⟨S1x4096, .i32⟩
  | .hbm, ⟨3, _⟩ => ⟨S1x4096, .f32⟩
  | .hbm, ⟨4, _⟩ => ⟨S_, .i32⟩
  | .hbm, ⟨5, _⟩ => ⟨S8192x4096, .i32⟩
  | .hbm, ⟨6, _⟩ => ⟨S8192x4096, .i32⟩
  | .hbm, ⟨7, _⟩ => ⟨S8192x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, and the one law of sums that joins their two arrangements of it.

  For integer matrices x (8192 × 4096) and w (4096 × 4096), an integer row b and a row s of extended reals (both of
  length 4096), entry (r, c) of the result is

      ( Σ_{k < 4096} x[r, k] · w[k, c]  +  b[c] ) · s[c],

  every integer read as the real number it is. The entries are written through accessors indexed by natural numbers
  (an accessor reads 0 outside its array; no such entry is ever used), so that a block of rows or columns is plain
  arithmetic on the coordinates.

  The law: a sum of 4096 consecutive terms is the sum, over 8 consecutive runs, of each run's 512 terms. It is a
  regrouping of one sum, so it holds in every commutative additive monoid — among the extended reals with no
  finiteness assumption on the terms.
-/
import Idealize.ShloMosaic.PureOps.Ideal
import Idealize.ShloMosaic.Lib.ValueIdx

noncomputable section

namespace Cert.Affine

open Idealize.ShloMosaic Idealize.ShloMosaic.ValueIdx

/-- A signed 32-bit word as the real number it denotes, among the extended reals. -/
def intVal (v : BitVec 32) : EReal := ((v.toInt : ℝ) : EReal)

/-- Entry (r, k) of the left matrix, as a number. -/
def leftAt (x : (⟨2, ![8192, 4096]⟩ : Shape).Idx → BitVec 32) (r k : ℕ) : EReal :=
  if h : r < 8192 ∧ k < 4096 then intVal (x (ix2 (⟨r, h.1⟩ : Fin 8192) (⟨k, h.2⟩ : Fin 4096))) else 0

/-- Entry (k, c) of the right matrix, as a number. -/
def rightAt (w : (⟨2, ![4096, 4096]⟩ : Shape).Idx → BitVec 32) (k c : ℕ) : EReal :=
  if h : k < 4096 ∧ c < 4096 then intVal (w (ix2 (⟨k, h.1⟩ : Fin 4096) (⟨c, h.2⟩ : Fin 4096))) else 0

/-- Entry c of the integer row added to every row of the product, as a number. -/
def shiftAt (b : (⟨2, ![1, 4096]⟩ : Shape).Idx → BitVec 32) (c : ℕ) : EReal :=
  if h : c < 4096 then intVal (b (ix2 (0 : Fin 1) (⟨c, h⟩ : Fin 4096))) else 0

/-- Entry c of the row of factors that multiplies every row last. -/
def factorAt (s : (⟨2, ![1, 4096]⟩ : Shape).Idx → EReal) (c : ℕ) : EReal :=
  if h : c < 4096 then s (ix2 (0 : Fin 1) (⟨c, h⟩ : Fin 4096)) else 0

/-- The term of the inner product of row r and column c at position k. -/
def term (x : (⟨2, ![8192, 4096]⟩ : Shape).Idx → BitVec 32) (w : (⟨2, ![4096, 4096]⟩ : Shape).Idx → BitVec 32)
    (r c k : ℕ) : EReal := leftAt x r k * rightAt w k c

/-- Entry (r, c) of the result: the inner product of row r and column c, shifted, then scaled. -/
def entry (x : (⟨2, ![8192, 4096]⟩ : Shape).Idx → BitVec 32) (w : (⟨2, ![4096, 4096]⟩ : Shape).Idx → BitVec 32)
    (b : (⟨2, ![1, 4096]⟩ : Shape).Idx → BitVec 32) (s : (⟨2, ![1, 4096]⟩ : Shape).Idx → EReal) (r c : ℕ) : EReal :=
  ((∑ k : Fin 4096, term x w r c k.val) + shiftAt b c) * factorAt s c

/-- The whole result, index by index. -/
def result (x : (⟨2, ![8192, 4096]⟩ : Shape).Idx → BitVec 32) (w : (⟨2, ![4096, 4096]⟩ : Shape).Idx → BitVec 32)
    (b : (⟨2, ![1, 4096]⟩ : Shape).Idx → BitVec 32) (s : (⟨2, ![1, 4096]⟩ : Shape).Idx → EReal) :
    (⟨2, ![8192, 4096]⟩ : Shape).Idx → EReal := fun i => entry x w b s (i 0).val (i 1).val

/-! ## One sum, in runs -/

section Runs

variable {β : Type*} [AddCommMonoid β]

/-- A sum of n·L consecutive terms is the sum over n consecutive runs of each run's L terms. -/
theorem sum_range_runs (F : ℕ → β) (L : ℕ) :
    ∀ n : ℕ, ∑ k ∈ Finset.range (n * L), F k = ∑ s ∈ Finset.range n, ∑ j ∈ Finset.range L, F (L * s + j)
  | 0 => by simp
  | n + 1 => by
    rw [Nat.succ_mul, Finset.sum_range_add, sum_range_runs F L n, Finset.sum_range_succ, Nat.mul_comm n L]

/-- 4096 consecutive terms, as 8 runs of 512. -/
theorem sum_in_runs (F : ℕ → β) :
    ∑ k : Fin 4096, F k.val = ∑ s ∈ Finset.range 8, ∑ j : Fin 512, F (512 * s + j.val) := by
  rw [← Finset.sum_range (fun n => F n), show (4096 : ℕ) = 8 * 512 from rfl, sum_range_runs F 512 8]
  exact Finset.sum_congr rfl fun s _ => Finset.sum_range (fun j => F (512 * s + j))

end Runs

/-- Entry (r, c) with its inner product taken run by run: what an accumulation over 8 blocks of 512 positions leaves. -/
theorem entry_in_runs (x : (⟨2, ![8192, 4096]⟩ : Shape).Idx → BitVec 32) (w : (⟨2, ![4096, 4096]⟩ : Shape).Idx → BitVec 32)
    (b : (⟨2, ![1, 4096]⟩ : Shape).Idx → BitVec 32) (s : (⟨2, ![1, 4096]⟩ : Shape).Idx → EReal) (r c : ℕ) :
    entry x w b s r c
      = ((∑ u ∈ Finset.range 8, ∑ j : Fin 512, term x w r c (512 * u + j.val)) + shiftAt b c) * factorAt s c := by
  unfold entry
  rw [sum_in_runs (fun k => term x w r c k)]

end Cert.Affine

end
-- ==== Proof.Pieces.lean ====
/-
  What one call of the kernel body leaves behind, case by case, as values.

  The body keeps a 1024 × 1024 accumulator between grid points. With A the block of the left matrix and B the block of
  the right matrix staged at the point, and step(A, B, acc) = acc + A·B:
    · at the first position of the contraction axis it stores the zero block, reads it back, and leaves step(A, B, 0);
    · at every later position it leaves step(A, B, acc) of what the point before left;
    · at the last position it also stores the output block: finish(b, s, step(A, B, acc)) of the staged rows b and s,
      finish(b, s, v) = (v + b) · s.
  Each statement reads the stores the body's run made — one whole-block store, or two with the second on top — back as
  the value of the last store, and each load through a whole block as the block's contents.
-/
import proofs.«106567_j61297773248989_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The offsets of a whole block are zero on both axes. -/
theorem hz : (![0, 0] : Fin 2 → Nat) = fun _ => 0 := funext fun a => by fin_cases a <;> rfl

/-- First position of the contraction axis: the accumulator is zeroed, read back, and left at step(A, B, 0). -/
theorem acc_first (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .i32) (x1 : Vec F S512x1024 .i32) (x2 : Vec F S1x1024 .i32) (x3 : Vec F S1x1024 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S1x1024) hz,
    View.ld_unit_zero (S := S1024x1024) hz]

/-- A middle position: the accumulator is left at step(A, B, acc) of what it held. -/
theorem acc_middle (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .i32) (x1 : Vec F S512x1024 .i32) (x2 : Vec F S1x1024 .i32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S1x1024) hz,
    View.ld_unit_zero (S := S1024x1024) hz]

/-- The last position: the accumulator is again left at step(A, B, acc) … -/
theorem acc_last (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .i32) (x1 : Vec F S512x1024 .i32) (x2 : Vec F S1x1024 .i32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S1x1024) hz,
    View.ld_unit_zero (S := S1024x1024) hz]

/-- … and the output block is stored: finish(b, s, ·) of the accumulator just written, read back. -/
theorem out_last (c : Dev nD) (i : grid0.Coords) (arg3 : Memref sig .tc .vmem S1024x512 .i32) (harg3 : arg3.IsWhole) (arg4 : Memref sig .tc .vmem S512x1024 .i32) (harg4 : arg4.IsWhole) (arg5 : Memref sig .tc .vmem S1x1024 .i32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .i32) (x1 : Vec F S512x1024 .i32) (x2 : Vec F S1x1024 .i32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S1x1024) hz,
    View.ld_unit_zero (S := S1024x1024) hz]

end Cert.KernelIdeal.Body

end
-- ==== Proof.Payload.lean ====
/-
  The body's three values, read at an entry over exact numbers (integers as reals, floats as extended reals, every
  operation the textbook one).

    · the zero block is 0 at every entry;
    · step(A, B, acc) at (p, q) is acc[p, q] + Σ_{j < 512} A[p, j] · B[j, q]: a matrix product into a zero accumulator is
      the plain sum over the contracted position, and converting an integer to a float of either width is exact;
    · finish(b, s, v) at (p, q) is (v[p, q] + b[q]) · s[q]: a row broadcast down the block reads the row at the column.
-/
import proofs.«106567_j61297773248989_1_alg».proof.Proof.Gen.KernelIdeal.Skeleton
import proofs.«106567_j61297773248989_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx Cert.Affine

/-- The contraction of a 1024 × 512 block with a 512 × 1024 block: rows by columns over the shared axis. -/
abbrev blockDot : DotDims S1024x512 S512x1024 S1024x1024 := dot_S1024x512_S512x1024_S1024x1024_1_0_0_1_n_n

/-- Where the product at output entry j and contracted position q reads its operands: the left one at (row of j, q) … -/
theorem left_row (j : S1024x1024.Idx) (q : blockDot.contr.Idx) : (blockDot.lhsIdx j q 0).val = (j 0).val := by
  unfold DotDims.lhsIdx
  rw [dif_neg (show ¬(0 : Fin S1024x512.rank) ∈ blockDot.lhsBatch by decide),
    dif_pos (show (0 : Fin S1024x512.rank) ∈ blockDot.lhsNonContracting by decide)]
  rfl
theorem left_col (j : S1024x1024.Idx) (q : blockDot.contr.Idx) : (blockDot.lhsIdx j q 1).val = (q ⟨0, by decide⟩).val :=
  blockDot.lhsIdx_val_of_single rfl j q
/-- … and the right one at (q, column of j). -/
theorem right_row (j : S1024x1024.Idx) (q : blockDot.contr.Idx) : (blockDot.rhsIdx j q 0).val = (q ⟨0, by decide⟩).val :=
  blockDot.rhsIdx_val_of_single rfl j q
theorem right_col (j : S1024x1024.Idx) (q : blockDot.contr.Idx) : (blockDot.rhsIdx j q 1).val = (j 1).val := by
  unfold DotDims.rhsIdx
  rw [dif_neg (show ¬(1 : Fin S512x1024.rank) ∈ blockDot.rhsBatch by decide),
    dif_pos (show (1 : Fin S512x1024.rank) ∈ blockDot.rhsNonContracting by decide)]
  rfl

/-- The zero block is 0 at every entry. -/
theorem zero_at (j : S1024x1024.Idx) : k0_pay1 (F := Ideal) j = 0 := by
  unfold k0_pay1
  exact (congrFun (shapeCast_self _ _) j).trans Ideal.ofBits_zero_f32

/-- step(A, B, acc) at (p, q): the accumulator there plus the inner product of row p of A and column q of B. -/
theorem step_at (A : Vec Ideal S1024x512 .i32) (B : Vec Ideal S512x1024 .i32) (acc : Vec Ideal S1024x1024 .f32)
    (p q : Fin 1024) :
    k0_pay2 A B acc (ix2 p q) = acc (ix2 p q) + ∑ j : Fin 512, intVal (A (ix2 p j)) * intVal (B (ix2 j q)) := by
  unfold k0_pay2
  refine (congrFun (shapeCast_self _ _) (ix2 p q)).trans ?_
  refine (addf_apply _ _ _).trans ?_
  refine congrArg (fun z => acc (ix2 p q) + z) ?_
  refine (Ideal.matmul_constant_zero_apply blockDot none _ _ (ix2 p q)).trans ?_
  rw [← Equiv.sum_comp (contrEquiv1 blockDot 512 rfl rfl).symm]
  refine Finset.sum_congr rfl fun k _ => ?_
  have hk := contrEquiv1_symm_val blockDot 512 rfl rfl k
  have el : blockDot.lhsIdx (ix2 p q) ((contrEquiv1 blockDot 512 rfl rfl).symm k) = ix2 p k :=
    funext fun a => Fin.ext (by
      match a with
      | ⟨0, _⟩ => exact left_row _ _
      | ⟨1, _⟩ => exact (left_col _ _).trans hk)
  have er : blockDot.rhsIdx (ix2 p q) ((contrEquiv1 blockDot 512 rfl rfl).symm k) = ix2 k q :=
    funext fun a => Fin.ext (by
      match a with
      | ⟨0, _⟩ => exact (right_row _ _).trans hk
      | ⟨1, _⟩ => exact right_col _ _)
  rw [el, er]
  rfl

/-- finish(b, s, v) at (p, q): the entry of v, plus b at column q, times s at column q. -/
theorem finish_at (b : Vec Ideal S1x1024 .i32) (s : Vec Ideal S1x1024 .f32) (v : Vec Ideal S1024x1024 .f32)
    (p q : Fin 1024) :
    k0_pay3 b s v (ix2 p q) = (v (ix2 p q) + intVal (b (ix2 (0 : Fin 1) q))) * s (ix2 (0 : Fin 1) q) := by
  unfold k0_pay3
  refine (mulf_apply _ _ _).trans ?_
  refine congrArg₂ (fun y z => y * z) ?_ ?_
  · refine (addf_apply _ _ _).trans ?_
    refine congrArg (fun z => v (ix2 p q) + z) ?_
    exact broadcastTo_1b_ab_apply _ _ p q
  · exact broadcastTo_1b_ab_apply _ _ p q

end Cert.KernelIdeal.Entry

end
-- ==== Proof.Blocks.lean ====
/-
  Which part of each array a grid point sees.

  The grid has 8 × 4 × 8 points, numbered row-major: point t has row-block R = t / 32, column-block C = t / 8 mod 4 and
  contraction position u = t mod 8. At point t the pipeline stages
    · rows 1024·R … of the left matrix at its columns 512·u …   (a 1024 × 512 block),
    · rows 512·u … of the right matrix at its columns 1024·C …  (a 512 × 1024 block),
    · columns 1024·C … of the integer row and of the row of factors (1 × 1024 blocks),
  and the output block covers rows 1024·R … and columns 1024·C … . An entry of a block sits in its array, on each axis,
  at the block's index times the block's extent plus the entry's own coordinate.
-/
import proofs.«106567_j61297773248989_1_alg».proof.Proof.Gen.KernelIdeal.Frame
import proofs.«106567_j61297773248989_1_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx
open Idealize.SL.Sem Cert.Affine

/-! ## The block indices, decided once over the 256 points -/

theorem index_left : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

theorem index_right : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)

theorem index_shift : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)

theorem index_factor : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)

theorem index_out : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-- There are 256 points. -/
theorem point_lt (t : Fin cfg0.N) : t.val < 256 := lt_of_lt_of_eq t.isLt N_0

/-! ## An entry of a staged block is an entry of its array -/

variable {F : FTy → Type} [FloatOps F]
variable (m : (ℓ : Loc nD τ sig) → Buf (Elt F) ℓ)

/-- Entry (p, j) of the left block at point t is entry (1024·R + p, 512·u + j) of the left matrix. -/
theorem left_block (c : Dev nD) (t : Fin cfg0.N) (p : Fin 1024) (j : Fin 512)
    (hr : 1024 * (t.val / 32) + p.val < 8192) (hk : 512 * (t.val % 8) + j.val < 4096) :
    (iblk m c 0 t : Vec F S1024x512 .i32) (ix2 p j)
      = (m ((c : Thread nD τ).loc main_arg0) : Vec F S8192x4096 .i32) (ix2 (⟨_, hr⟩ : Fin 8192) (⟨_, hk⟩ : Fin 4096)) := by
  have hi := index_left t
  unfold iblk
  rw [View.read_apply]
  show V m c main_arg0 _ = m (c.tc.loc main_arg0) _
  refine congrArg (m (c.tc.loc main_arg0)) (funext fun a => Fin.ext ?_)
  match a with
  | ⟨0, _⟩ => show win0_0.index t 0 * 1024 + 1 * p.val = 1024 * (t.val / 32) + p.val; rw [hi.1]; omega
  | ⟨1, _⟩ => show win0_0.index t 1 * 512 + 1 * j.val = 512 * (t.val % 8) + j.val; rw [hi.2]; omega

/-- Entry (j, q) of the right block at point t is entry (512·u + j, 1024·C + q) of the right matrix. -/
theorem right_block (c : Dev nD) (t : Fin cfg0.N) (j : Fin 512) (q : Fin 1024)
    (hk : 512 * (t.val % 8) + j.val < 4096) (hc : 1024 * (t.val / 8 % 4) + q.val < 4096) :
    (iblk m c 1 t : Vec F S512x1024 .i32) (ix2 j q)
      = (m ((c : Thread nD τ).loc main_arg1) : Vec F S4096x4096 .i32) (ix2 (⟨_, hk⟩ : Fin 4096) (⟨_, hc⟩ : Fin 4096)) := by
  have hi := index_right t
  unfold iblk
  rw [View.read_apply]
  show V m c main_arg1 _ = m (c.tc.loc main_arg1) _
  refine congrArg (m (c.tc.loc main_arg1)) (funext fun a => Fin.ext ?_)
  match a with
  | ⟨0, _⟩ => show win0_1.index t 0 * 512 + 1 * j.val = 512 * (t.val % 8) + j.val; rw [hi.1]; omega
  | ⟨1, _⟩ => show win0_1.index t 1 * 1024 + 1 * q.val = 1024 * (t.val / 8 % 4) + q.val; rw [hi.2]; omega

/-- Entry (0, q) of the integer row's block at point t is entry 1024·C + q of the row. -/
theorem shift_block (c : Dev nD) (t : Fin cfg0.N) (q : Fin 1024) (hc : 1024 * (t.val / 8 % 4) + q.val < 4096) :
    (iblk m c 2 t : Vec F S1x1024 .i32) (ix2 (0 : Fin 1) q)
      = (m ((c : Thread nD τ).loc main_arg2) : Vec F S1x4096 .i32) (ix2 (0 : Fin 1) (⟨_, hc⟩ : Fin 4096)) := by
  have hi := index_shift t
  unfold iblk
  rw [View.read_apply]
  show V m c main_arg2 _ = m (c.tc.loc main_arg2) _
  refine congrArg (m (c.tc.loc main_arg2)) (funext fun a => Fin.ext ?_)
  match a with
  | ⟨0, _⟩ => show win0_2.index t 0 * 1 + 1 * 0 = 0; rw [hi.1]
  | ⟨1, _⟩ => show win0_2.index t 1 * 1024 + 1 * q.val = 1024 * (t.val / 8 % 4) + q.val; rw [hi.2]; omega

/-- Entry (0, q) of the block of factors at point t is entry 1024·C + q of the row of factors. -/
theorem factor_block (c : Dev nD) (t : Fin cfg0.N) (q : Fin 1024) (hc : 1024 * (t.val / 8 % 4) + q.val < 4096) :
    (iblk m c 3 t : Vec F S1x1024 .f32) (ix2 (0 : Fin 1) q)
      = (m ((c : Thread nD τ).loc main_arg3) : Vec F S1x4096 .f32) (ix2 (0 : Fin 1) (⟨_, hc⟩ : Fin 4096)) := by
  have hi := index_factor t
  unfold iblk
  rw [View.read_apply]
  show V m c main_arg3 _ = m (c.tc.loc main_arg3) _
  refine congrArg (m (c.tc.loc main_arg3)) (funext fun a => Fin.ext ?_)
  match a with
  | ⟨0, _⟩ => show win0_3.index t 0 * 1 + 1 * 0 = 0; rw [hi.1]
  | ⟨1, _⟩ => show win0_3.index t 1 * 1024 + 1 * q.val = 1024 * (t.val / 8 % 4) + q.val; rw [hi.2]; omega

end Cert.KernelIdeal.Blocks

end
-- ==== Proof.Fold.lean ====
/-
  The accumulator, followed along the contraction axis.

  Fix a core and write X, W for the two matrices in memory. At point t — row-block R, column-block C, position u —
  the body adds to entry (p, q) of the accumulator the partial inner product

      addend(t)(p, q) = Σ_{j < 512} X[1024·R + p, 512·u + j] · W[512·u + j, 1024·C + q].

  The accumulator is zeroed at u = 0, so after the point at position u of a run of eight it holds the sum of the addends
  of the run's points up to that one: the library's fold of an output that is reset and then added into, with zero as
  the reset value. No entry needs to be finite: only sums are regrouped.
-/
import proofs.«106567_j61297773248989_1_alg».proof.Proof.Gen.KernelIdeal.Value
import proofs.«106567_j61297773248989_1_alg».proof.Proof.Spec
import proofs.«106567_j61297773248989_1_alg».proof.Proof.Pieces
import proofs.«106567_j61297773248989_1_alg».proof.Proof.Payload
import proofs.«106567_j61297773248989_1_alg».proof.Proof.Blocks
import Idealize.ShloMosaic.Lib.ValueIdx
import Idealize.ShloMosaic.Lib.Pipeline.Value

noncomputable section

namespace Cert.KernelIdeal.Fold

open Cert.KernelIdeal Cert.KernelIdeal.Gen Idealize.ShloMosaic Idealize.ShloMosaic.TcCoe Idealize.ShloMosaic.ValueIdx
open Idealize.SL.Sem Cert.Affine Cert.KernelIdeal.Blocks Cert.KernelIdeal.Entry

variable (m : (ℓ : Loc nD τ sig) → Buf (Elt Ideal) ℓ)

/-- The two matrices, the integer row and the row of factors, as core c finds them in memory. -/
abbrev matX (c : Dev nD) : Vec Ideal S8192x4096 .i32 := m ((c : Thread nD τ).loc main_arg0)
abbrev matW (c : Dev nD) : Vec Ideal S4096x4096 .i32 := m ((c : Thread nD τ).loc main_arg1)
abbrev rowB (c : Dev nD) : Vec Ideal S1x4096 .i32 := m ((c : Thread nD τ).loc main_arg2)
abbrev rowS (c : Dev nD) : Vec Ideal S1x4096 .f32 := m ((c : Thread nD τ).loc main_arg3)

/-- What point n adds to entry i of the accumulator (a function of every natural number; only n < 256 is used). -/
def addend (c : Dev nD) (n : ℕ) (i : S1024x1024.Idx) : EReal :=
  ∑ j : Fin 512, term (matX m c) (matW m c) (1024 * (n / 32) + (i 0).val) (1024 * (n / 8 % 4) + (i 1).val) (512 * (n % 8) + j.val)

/-! ## The staged blocks' entries, as entries of the arrays -/

theorem left_entry (c : Dev nD) (t : Fin cfg0.N) (p : Fin 1024) (j : Fin 512) :
    intVal ((iblk m c 0 t : Vec Ideal S1024x512 .i32) (ix2 p j))
      = leftAt (matX m c) (1024 * (t.val / 32) + p.val) (512 * (t.val % 8) + j.val) := by
  have ht := point_lt t
  have hr : 1024 * (t.val / 32) + p.val < 8192 := by have := p.isLt; omega
  have hk : 512 * (t.val % 8) + j.val < 4096 := by have := j.isLt; omega
  unfold leftAt
  rw [dif_pos ⟨hr, hk⟩, left_block m c t p j hr hk]

theorem right_entry (c : Dev nD) (t : Fin cfg0.N) (j : Fin 512) (q : Fin 1024) :
    intVal ((iblk m c 1 t : Vec Ideal S512x1024 .i32) (ix2 j q))
      = rightAt (matW m c) (512 * (t.val % 8) + j.val) (1024 * (t.val / 8 % 4) + q.val) := by
  have ht := point_lt t
  have hk : 512 * (t.val % 8) + j.val < 4096 := by have := j.isLt; omega
  have hc : 1024 * (t.val / 8 % 4) + q.val < 4096 := by have := q.isLt; omega
  unfold rightAt
  rw [dif_pos ⟨hk, hc⟩, right_block m c t j q hk hc]

theorem shift_entry (c : Dev nD) (t : Fin cfg0.N) (q : Fin 1024) :
    intVal ((iblk m c 2 t : Vec Ideal S1x1024 .i32) (ix2 (0 : Fin 1) q)) = shiftAt (rowB m c) (1024 * (t.val / 8 % 4) + q.val) := by
  have hc : 1024 * (t.val / 8 % 4) + q.val < 4096 := by have := q.isLt; omega
  unfold shiftAt
  rw [dif_pos hc, shift_block m c t q hc]

theorem factor_entry (c : Dev nD) (t : Fin cfg0.N) (q : Fin 1024) :
    (iblk m c 3 t : Vec Ideal S1x1024 .f32) (ix2 (0 : Fin 1) q) = factorAt (rowS m c) (1024 * (t.val / 8 % 4) + q.val) := by
  have hc : 1024 * (t.val / 8 % 4) + q.val < 4096 := by have := q.isLt; omega
  unfold factorAt
  rw [dif_pos hc, factor_block m c t q hc]

/-! ## One point's step -/

/-- At point t the step adds the point's addend to whatever the accumulator held. -/
theorem step_entry (c : Dev nD) (t : Fin cfg0.N) (acc : Vec Ideal S1024x1024 .f32) (i : S1024x1024.Idx) :
    k0_pay2 (iblk m c 0 t) (iblk m c 1 t) acc i = acc i + addend m c t.val i := by
  obtain ⟨p, q, rfl⟩ : ∃ (p : Fin 1024) (q : Fin 1024), i = ix2 p q := ⟨i 0, i 1, eq_ix2 i⟩
  refine (step_at (iblk m c 0 t) (iblk m c 1 t) acc p q).trans ?_
  refine congrArg (fun z => acc (ix2 p q) + z) (Finset.sum_congr rfl fun j _ => ?_)
  show _ = term (matX m c) (matW m c) (1024 * (t.val / 32) + p.val) (1024 * (t.val / 8 % 4) + q.val) (512 * (t.val % 8) + j.val)
  unfold term
  rw [left_entry m c t p j, right_entry m c t j q]

/-- At the first point of a run (position 0) the accumulator is left at 0 plus that point's addend, whatever it held. -/
theorem scratch_first (c : Dev nD) (t : Fin cfg0.N) (h0 : t.val % 8 = 0) (old : Vec Ideal S1024x1024 .f32) (i : S1024x1024.Idx) :
    Value.scAt0_0 m c t.val t.isLt old i = 0 + addend m c t.val i := by
  have h1 : ¬t.val % 8 = 7 := by omega
  unfold Value.scAt0_0
  rw [dif_pos h0, dif_neg h1]
  refine (congrFun (Body.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) i).trans ?_
  refine (step_entry m c t _ i).trans ?_
  rw [zero_at]

/-- At every later point of the run the accumulator is left at what it held plus the point's addend. -/
theorem scratch_next (c : Dev nD) (t : Fin cfg0.N) (h0 : ¬t.val % 8 = 0) (acc : Vec Ideal S1024x1024 .f32) (i : S1024x1024.Idx) :
    Value.scAt0_0 m c t.val t.isLt acc i = acc i + addend m c t.val i := by
  unfold Value.scAt0_0
  rw [dif_neg h0]
  by_cases h1 : t.val % 8 = 7
  · rw [dif_pos h1]
    refine (congrFun (Body.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) acc) i).trans ?_
    exact step_entry m c t acc i
  · rw [dif_neg h1]
    refine (congrFun (Body.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) acc) i).trans ?_
    exact step_entry m c t acc i

/-! ## The run's fold -/

/-- After point t the accumulator holds the sum of the addends of its run's points up to t. -/
theorem scratch_after (c : Dev nD) (t : Fin cfg0.N) (i : S1024x1024.Idx) :
    (outsAt0 m c t.val t.isLt).2 i = ∑ s ∈ Finset.range (t.val % 8 + 1), addend m c (8 * (t.val / 8) + s) i := by
  have ht := point_lt t
  rw [Value.soutsAt0_0_eq m c t]
  refine (Pipeline.accAt_add_apply (N := cfg0.N) (fun n h => Value.scAt0_0 m c n h (VS0_0.read (Elt Ideal) VS0_0.junk)) (Value.scAt0_0 m c)
    (fun _ => 0) (addend m c) (8 * (t.val / 8)) 7
    (fun h i => scratch_first m c ⟨8 * (t.val / 8), h⟩ (by show 8 * (t.val / 8) % 8 = 0; omega) _ i)
    (fun n h acc i hlo hhi => scratch_next m c ⟨n, h⟩ (by show ¬n % 8 = 0; omega) acc i)
    (t.val % 8) (by omega) _ i).trans ?_
  exact zero_add _

end Cert.KernelIdeal.Fold

end
-- ==== Proof.KernelValue.lean ====
/-
  The kernel's result array.

  The output block is written back only at the last position of each run of eight points, when the accumulator holds
  the whole inner product: at point t (row-block R, column-block C, position 7) entry (p, q) of the block written back is

      ( Σ_{u < 8} addend(run's point u)(p, q) + b[1024·C + q] ) · s[1024·C + q],

  which is entry (1024·R + p, 1024·C + q) of the common function, its inner product taken in eight runs of 512. The 32
  blocks written back tile the 8192 × 4096 array — entry (r, c) lies in the block of R = r / 1024, C = c / 1024 — so the
  array ends holding the common function of the four argument arrays.
-/
import proofs.«106567_j61297773248989_1_alg».proof.Proof.Gen.KernelIdeal.Value
import proofs.«106567_j61297773248989_1_alg».proof.Proof.Spec
import proofs.«106567_j61297773248989_1_alg».proof.Proof.Pieces
import proofs.«106567_j61297773248989_1_alg».proof.Proof.Payload
import proofs.«106567_j61297773248989_1_alg».proof.Proof.Blocks
import proofs.«106567_j61297773248989_1_alg».proof.Proof.Fold
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.ShloMosaic.ValueIdx
open Idealize.SL.Sem Cert.Affine Cert.KernelIdeal.Blocks Cert.KernelIdeal.Entry Cert.KernelIdeal.Fold
open Idealize.ShloMosaic.Pipeline (Dat)

variable (m : (ℓ : Loc nD τ sig) → Buf (Elt Ideal) ℓ) (ρ : Dev nD → PrngReg)

/-- The common function of the four argument arrays as core c finds them, as contents of the result array. -/
abbrev expected (c : Dev nD) : Buf (Elt Ideal) ((c : Thread nD τ).loc main_v0) :=
  result (matX m c) (matW m c) (rowB m c) (rowS m c)

/-! ## What a flushing point writes back -/

/-- Entry (p, q) of the block written back at a point at position 7 is entry (1024·R + p, 1024·C + q) of the common
    function. -/
theorem flushed_entry (c : Dev nD) (t : Fin cfg0.N) (h7 : t.val % 8 = 7) (p q : Fin 1024) :
    (dats m 0 c).flushed 4 t (ix2 p q)
      = entry (matX m c) (matW m c) (rowB m c) (rowS m c) (1024 * (t.val / 32) + p.val) (1024 * (t.val / 8 % 4) + q.val) := by
  have ht := point_lt t
  have h0 : ¬t.val % 8 = 0 := by omega
  have hc0 : ¬cond0_0 (grid0.coords t) := fun h => h0 ((hcond0_0 t).mp h)
  have hc1 : cond0_1 (grid0.coords t) := (hcond0_1 t).mpr h7
  -- the accumulator after this point is this point's step of what the point before left
  have e1 := congrArg Prod.snd (outsAt0_C m c t h0 h7)
  dsimp only at e1
  have e2 : (outsAt0 m c t.val t.isLt).2
      = k0_pay2 (iblk m c 0 t) (iblk m c 1 t) (outsAt0 m c (t.val - 1) (Nat.lt_of_le_of_lt (Nat.sub_le _ _) t.isLt)).2 :=
    e1.trans (Body.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) (outsAt0 m c (t.val - 1) (Nat.lt_of_le_of_lt (Nat.sub_le _ _) t.isLt)).2)
  refine (congrFun (Value.flushed4_C m c t h0 h7) (ix2 p q)).trans ?_
  refine (congrFun (Body.out_last c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) (outsAt0 m c (t.val - 1) (Nat.lt_of_le_of_lt (Nat.sub_le _ _) t.isLt)).2) (ix2 p q)).trans ?_
  refine (finish_at (iblk m c 2 t) (iblk m c 3 t) _ p q).trans ?_
  rw [← e2, scratch_after m c t (ix2 p q), shift_entry m c t q, factor_entry m c t q, entry_in_runs,
    show t.val % 8 + 1 = 8 by omega]
  refine congrArg (fun z => (z + shiftAt (rowB m c) (1024 * (t.val / 8 % 4) + q.val)) * factorAt (rowS m c) (1024 * (t.val / 8 % 4) + q.val))
    (Finset.sum_congr rfl fun u hu => ?_)
  have hu8 : u < 8 := Finset.mem_range.mp hu
  unfold addend
  refine Finset.sum_congr rfl fun j _ => ?_
  show term _ _ (1024 * ((8 * (t.val / 8) + u) / 32) + p.val) (1024 * ((8 * (t.val / 8) + u) / 8 % 4) + q.val)
      (512 * ((8 * (t.val / 8) + u) % 8) + j.val) = _
  rw [show (8 * (t.val / 8) + u) / 32 = t.val / 32 by omega, show (8 * (t.val / 8) + u) / 8 % 4 = t.val / 8 % 4 by omega,
    show (8 * (t.val / 8) + u) % 8 = u by omega]

/-- So what a flushing point writes back is its block of the common function. -/
theorem flushed_eq (c : Dev nD) (t : Fin cfg0.N) (hf : (cfg0.win 4).flush t = true) :
    (dats m 0 c).flushed 4 t = ((cfg0.win 4).blk t).view.read (Elt Ideal) (expected m c) := by
  have h7 : t.val % 8 = 7 := (flush0_4 t).mp hf
  have hi := index_out t
  refine funext fun (y : S1024x1024.Idx) => ?_
  obtain ⟨p, q, rfl⟩ : ∃ (p : Fin 1024) (q : Fin 1024), y = ix2 p q := ⟨y 0, y 1, eq_ix2 y⟩
  refine (flushed_entry m c t h7 p q).trans ?_
  rw [View.read_apply]
  show _ = result (matX m c) (matW m c) (rowB m c) (rowS m c) (((cfg0.win 4).blk t).view.emb (ix2 p q))
  unfold result
  refine congrArg₂ (entry (matX m c) (matW m c) (rowB m c) (rowS m c)) ?_ ?_
  · show 1024 * (t.val / 32) + p.val = win0_4.index t 0 * 1024 + 1 * p.val
    rw [hi.1]; omega
  · show 1024 * (t.val / 8 % 4) + q.val = win0_4.index t 1 * 1024 + 1 * q.val
    rw [hi.2]; omega

/-! ## The blocks written back tile the array -/

/-- An index of the array is in point t's output block iff each coordinate is in the block's range on its axis. -/
theorem mem_out_block (t : Fin cfg0.N) (i : S8192x4096.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index of the array is in the block of some point that writes back: the one at R = r / 1024, C = c / 1024,
    position 7. -/
theorem covered (i : S8192x4096.Idx) :
    ∃ t : Fin cfg0.N, (cfg0.win 4).flush t = true ∧ i ∈ ((cfg0.win 4).blk t).view.set := by
  have hr : (i 0).val < 8192 := idx2_lt0 i
  have hc : (i 1).val < 4096 := idx2_lt1 i
  have hN : cfg0.N = 256 := N_0
  have hb : ((i 0).val / 1024 * 4 + (i 1).val / 1024) * 8 + 7 < cfg0.N := by rw [hN]; omega
  have hi := index_out ⟨((i 0).val / 1024 * 4 + (i 1).val / 1024) * 8 + 7, hb⟩
  have e0 : (((i 0).val / 1024 * 4 + (i 1).val / 1024) * 8 + 7) / 32 = (i 0).val / 1024 := by omega
  have e1 : (((i 0).val / 1024 * 4 + (i 1).val / 1024) * 8 + 7) / 8 % 4 = (i 1).val / 1024 := by omega
  refine ⟨⟨((i 0).val / 1024 * 4 + (i 1).val / 1024) * 8 + 7, hb⟩, (flush0_4 _).mpr (by show (_ * 8 + 7) % 8 = 7; omega), ?_⟩
  rw [mem_out_block]
  intro a
  match a with
  | ⟨0, _⟩ =>
    show win0_4.index _ 0 * 1024 ≤ (i 0).val ∧ (i 0).val < win0_4.index _ 0 * 1024 + 1024
    rw [hi.1]; show _ / 32 * 1024 ≤ _ ∧ _ < _ / 32 * 1024 + 1024; rw [e0]; omega
  | ⟨1, _⟩ =>
    show win0_4.index _ 1 * 1024 ≤ (i 1).val ∧ (i 1).val < win0_4.index _ 1 * 1024 + 1024
    rw [hi.2]; show _ / 8 % 4 * 1024 ≤ _ ∧ _ < _ / 8 % 4 * 1024 + 1024; rw [e1]; omega

/-! ## The array after the run, and the run -/

/-- The result array ends holding the common function of the argument arrays. -/
theorem final (c : Dev nD) : (dats m 0 c).arrAt 4 cfg0.N = expected m c :=
  (dats m 0 c).arrAt_eq_of_cover 4 (expected m c) (flushed_eq m c) (fun i => covered i)

/-- The kernel's run: it terminates with the result array at the common function and the arguments unchanged. -/
theorem run : θ_run defs (onTc (τ := τ) (main (F := Ideal))) ⟨m, fun _ => 0, ρ⟩ fun r => ∀ c : Dev nD,
      r.2.mem ((c : Thread nD τ).loc main_v0) = expected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference computes the same function.

  Its program is one whole matrix product of the two integer matrices converted to floats (the left one after
  subtracting a zero offset, which changes nothing), plus the integer row converted and broadcast down the rows, times
  the row of factors broadcast down the rows. Read at an entry over exact numbers: the host's product is the plain
  sum over all 4096 contracted positions, a conversion is exact, and each broadcast reads its row at the column.
-/
import proofs.«106567_j61297773248989_1_alg».proof.Proof.Gen.ReferenceIdeal.Read
import proofs.«106567_j61297773248989_1_alg».proof.Proof.Spec
import Idealize.ShloMosaic.Lib.ValueIdx
import Idealize.ShloMosaic.PureOps.Ideal.Laws

noncomputable section

namespace Cert.ReferenceIdeal.Whole

open Cert.ReferenceIdeal Cert.ReferenceIdeal.Read Idealize.ShloMosaic Idealize.ShloMosaic.ValueIdx Cert.Affine

/-! ## Where each stage reads its operand -/

theorem left_index (i : S8192x4096.Idx) (k : Fin 4096) :
    lidx_main_v4 i k = ix2 (⟨(i 0).val, idx2_lt0 i⟩ : Fin 8192) (⟨k.val, k.isLt⟩ : Fin 4096) :=
  funext fun a => Fin.ext (by match a with | ⟨0, _⟩ => rfl | ⟨1, _⟩ => rfl)

theorem right_index (i : S8192x4096.Idx) (k : Fin 4096) :
    ridx_main_v4 i k = ix2 (⟨k.val, k.isLt⟩ : Fin 4096) (⟨(i 1).val, idx2_lt1 i⟩ : Fin 4096) :=
  funext fun a => Fin.ext (by match a with | ⟨0, _⟩ => rfl | ⟨1, _⟩ => rfl)

theorem shift_index (i : S8192x4096.Idx) : idx_main_v6 i = ix2 (0 : Fin 1) (⟨(i 1).val, idx2_lt1 i⟩ : Fin 4096) :=
  funext fun a => Fin.ext (by match a with | ⟨0, _⟩ => rfl | ⟨1, _⟩ => rfl)

theorem factor_index (i : S8192x4096.Idx) : idx_main_v8 i = ix2 (0 : Fin 1) (⟨(i 1).val, idx2_lt1 i⟩ : Fin 4096) :=
  funext fun a => Fin.ext (by match a with | ⟨0, _⟩ => rfl | ⟨1, _⟩ => rfl)

/-! ## The operands of the product, the shift and the factor, as numbers -/

/-- The left operand at (row of i, k): the matrix entry minus zero, converted exactly. -/
theorem left_operand (x0 : (⟨S8192x4096, .i32⟩ : BufTy).Contents (Elt Ideal)) (i : S8192x4096.Idx) (k : Fin 4096) :
    val_main_v2 (F := Ideal) x0 (lidx_main_v4 i k) = leftAt x0 (i 0).val k.val := by
  unfold leftAt
  rw [dif_pos ⟨idx2_lt0 i, k.isLt⟩, left_index i k]
  show ((((x0 _) - (0#32 : BitVec 32)).toInt : ℝ) : EReal) = _
  rw [BitVec.sub_zero]
  rfl

/-- The right operand at (k, column of i). -/
theorem right_operand (x1 : (⟨S4096x4096, .i32⟩ : BufTy).Contents (Elt Ideal)) (i : S8192x4096.Idx) (k : Fin 4096) :
    val_main_v3 (F := Ideal) x1 (ridx_main_v4 i k) = rightAt x1 k.val (i 1).val := by
  unfold rightAt
  rw [dif_pos ⟨k.isLt, idx2_lt1 i⟩, right_index i k]
  rfl

/-- The integer row, converted, at the column of i. -/
theorem shift_operand (x2 : (⟨S1x4096, .i32⟩ : BufTy).Contents (Elt Ideal)) (i : S8192x4096.Idx) :
    val_main_v5 (F := Ideal) x2 (idx_main_v6 i) = shiftAt x2 (i 1).val := by
  unfold shiftAt
  rw [dif_pos (idx2_lt1 i), shift_index i]
  rfl

/-- The row of factors at the column of i. -/
theorem factor_operand (x3 : (⟨S1x4096, .f32⟩ : BufTy).Contents (Elt Ideal)) (i : S8192x4096.Idx) :
    x3 (idx_main_v8 i) = factorAt x3 (i 1).val := by
  unfold factorAt
  rw [dif_pos (idx2_lt1 i), factor_index i]

/-! ## The whole result -/

/-- The reference's last stage is the common function of the four arguments. -/
theorem stage_eq (x0 : (⟨S8192x4096, .i32⟩ : BufTy).Contents (Elt Ideal)) (x1 : (⟨S4096x4096, .i32⟩ : BufTy).Contents (Elt Ideal))
    (x2 : (⟨S1x4096, .i32⟩ : BufTy).Contents (Elt Ideal)) (x3 : (⟨S1x4096, .f32⟩ : BufTy).Contents (Elt Ideal)) :
    val_main_v9 (F := Ideal) x0 x1 x2 x3 = result x0 x1 x2 x3 := by
  funext i
  rw [val_main_v9_apply, val_main_v7_apply, val_main_v8_apply, val_main_v4_apply, val_main_v6_apply]
  show ((∑ k : Fin 4096, val_main_v2 (F := Ideal) x0 (lidx_main_v4 i k) * val_main_v3 (F := Ideal) x1 (ridx_main_v4 i k))
      + val_main_v5 (F := Ideal) x2 (idx_main_v6 i)) * x3 (idx_main_v8 i) = entry x0 x1 x2 x3 (i 0).val (i 1).val
  unfold entry
  rw [shift_operand x2 i, factor_operand x3 i]
  refine congrArg (fun z => (z + shiftAt x2 (i 1).val) * factorAt x3 (i 1).val) (Finset.sum_congr rfl fun k _ => ?_)
  unfold term
  rw [left_operand x0 i k, right_operand x1 i k]

end Cert.ReferenceIdeal.Whole

end
-- ==== Proof.lean ====
/- The kernel and its reference compute one function.

   Both take an 8192 × 4096 integer matrix x, a 4096 × 4096 integer matrix w, an integer row b and a float row s of
   length 4096, and return the 8192 × 4096 array with entry (r, c) equal to (Σ_k x[r,k]·w[k,c] + b[c]) · s[c]. The
   reference forms the whole product at once. The kernel walks a grid of 8 × 4 × 8 points: for each 1024 × 1024
   output block it accumulates, over eight blocks of 512 contracted positions, the product of a 1024 × 512 block of x
   with a 512 × 1024 block of w in an accumulator it zeroes at the first and carries to the last, where it adds the
   block of b, multiplies by the block of s and writes the output block back.

   Over exact numbers (an integer converted to a float of any width is that integer; a sum is the textbook sum) the two
   agree entry by entry: the kernel's eight partial inner products are a regrouping of the reference's one sum, and
   nothing else differs. Regrouping a sum needs no finiteness, so the precondition on the float row is not used.

   Proof/Spec.lean states the common function and the regrouping law; Proof/Pieces.lean, Payload.lean, Blocks.lean and
   Fold.lean read one grid point's work and the accumulator's history; Proof/KernelValue.lean reads the kernel's result
   array off its generated run; Proof/RefValue.lean reads the reference's off its generated run. The kernel does what
   its idealization does with nothing rewritten, so that conjunct is trivial; the three frames are the generated ones. -/
import proofs.«106567_j61297773248989_1_alg».proof.Defs
import proofs.«106567_j61297773248989_1_alg».proof.Proof.Gen.Kernel
import proofs.«106567_j61297773248989_1_alg».proof.Proof.Gen.Kernel.Skeleton
import proofs.«106567_j61297773248989_1_alg».proof.Proof.Gen.Kernel.Launch
import proofs.«106567_j61297773248989_1_alg».proof.Proof.Gen.Kernel.Points
import proofs.«106567_j61297773248989_1_alg».proof.Proof.Gen.Kernel.Frame
import proofs.«106567_j61297773248989_1_alg».proof.Proof.Gen.KernelIdeal
import proofs.«106567_j61297773248989_1_alg».proof.Proof.Gen.KernelIdeal.Skeleton
import proofs.«106567_j61297773248989_1_alg».proof.Proof.Gen.KernelIdeal.Launch
import proofs.«106567_j61297773248989_1_alg».proof.Proof.Gen.KernelIdeal.Points
import proofs.«106567_j61297773248989_1_alg».proof.Proof.Gen.KernelIdeal.Frame
import proofs.«106567_j61297773248989_1_alg».proof.Proof.Gen.KernelIdeal.Value
import proofs.«106567_j61297773248989_1_alg».proof.Proof.Gen.ReferenceIdeal
import proofs.«106567_j61297773248989_1_alg».proof.Proof.Gen.ReferenceIdeal.Run
import proofs.«106567_j61297773248989_1_alg».proof.Proof.Gen.ReferenceIdeal.Read
import proofs.«106567_j61297773248989_1_alg».proof.Proof.Gen.Pre_finite_inputs
import proofs.«106567_j61297773248989_1_alg».proof.Proof.KernelValue
import proofs.«106567_j61297773248989_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over exact numbers. -/
theorem frame_kernel_exact : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over exact numbers rewrote none of its operations. -/
theorem preserves : Cert.preserves_Kernel_KernelIdeal := trivial

/-- Run from memories that agree on the four arguments, the kernel and the reference both end with the result array at
    the common function of those arguments. -/
theorem algebraic : Cert.algebraic_KernelIdeal_ReferenceIdeal := by
  intro m ρ m' ρ' _ hagree
  refine ⟨fun c => Cert.KernelIdeal.Whole.expected m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq (F := Ideal), Cert.ReferenceIdeal.Whole.stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_exact, frame_reference, preserves, algebraic⟩

end Cert.Proof

end
